-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn_part1 {F : FTy → Type} [FloatOps F] (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  main_v18

def fn {F : FTy → Type} [FloatOps F] (main_arg0 : FVec F S4x2048x4096 .f32) (main_arg1 : FVec F S4096x4096 .f32) (main_arg2 : FVec F S4096x4096 .f32) (main_arg3 : FVec F S4096x4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_v13 main_v16
-- ==== Kernel.lean ====
abbrev S4x2048x4096 : Shape := ⟨3, ![4, 2048, 4096]⟩
abbrev S4096x4096 : Shape := ⟨2, ![4096, 4096]⟩
abbrev S12288x4096 : Shape := ⟨2, ![12288, 4096]⟩
abbrev S8192x4096 : Shape := ⟨2, ![8192, 4096]⟩
abbrev S8192x12288 : Shape := ⟨2, ![8192, 12288]⟩
abbrev S512x4096 : Shape := ⟨2, ![512, 4096]⟩
abbrev S1024x4096 : Shape := ⟨2, ![1024, 4096]⟩
abbrev S512x1024 : Shape := ⟨2, ![512, 1024]⟩
abbrev S4x2048x12288 : Shape := ⟨3, ![4, 2048, 12288]⟩

abbrev nBuf : Space → Nat
  | .hbm => 10
  | .vmem => 6
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S12288x4096, .f32⟩
  | .hbm, ⟨5, _⟩ => ⟨S12288x4096, .bf16⟩
  | .hbm, ⟨6, _⟩ => ⟨S8192x4096, .f32⟩
  | .hbm, ⟨7, _⟩ => ⟨S8192x4096, .bf16⟩
  | .hbm, ⟨8, _⟩ => ⟨S8192x12288, .f32⟩
  | .hbm, ⟨9, _⟩ => ⟨S4x2048x12288, .f32⟩
  | .local _ .vmem, ⟨0, _⟩ => ⟨S512x4096, .bf16⟩
  | .local _ .vmem, ⟨1, _⟩ => ⟨S512x4096, .bf16⟩
  | .local _ .vmem, ⟨2, _⟩ => ⟨S1024x4096, .bf16⟩
  | .local _ .vmem, ⟨3, _⟩ => ⟨S1024x4096, .bf16⟩
  | .local _ .vmem, ⟨4, _⟩ => ⟨S512x1024, .f32⟩
  | .local _ .vmem, ⟨5, _⟩ => ⟨S512x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![12, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  concatenates_S4096x4096_S4096x4096_S4096x4096_S12288x4096_d0 : Shape.Concatenates [S4096x4096, S4096x4096, S4096x4096] S12288x4096 0
  bitsLt_bf16_f32 : FTy.bits .bf16 < FTy.bits .f32
  shapeCasts_S4x2048x4096_S8192x4096 : S4x2048x4096.ShapeCasts S8192x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S512x1024_S512x1024_0_0 : ∀ a, (![0, 0] : Fin 2 → Nat) a + S512x1024.size a ≤ S512x1024.size a
  h_S512x1024 : 0 < S512x1024.numel
  shapeCasts_S8192x12288_S4x2048x12288 : S8192x12288.ShapeCasts S4x2048x12288
  dot_S512x4096_S1024x4096_S512x1024_1_1_0_0_n_n_wf : DotDims.WF S512x4096 S1024x4096 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .bf16 = 32 ∨ (Rect.block (s := S8192x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S12288x4096.size a
  hwx0_1 : ∀ i : grid0.Coords, EltTy.bits .bf16 = 32 ∨ (Rect.block (s := S12288x4096) S1024x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S8192x12288.size a
  hwx0_2 : ∀ i : grid0.Coords, EltTy.bits .f32 = 32 ∨ (Rect.block (s := S8192x12288) S512x1024.size (cc0_transform_2 i) (hinb0_2 i)).WholeWords (EltTy.packing .f32)

variable [Facts₀]

def dot_S512x4096_S1024x4096_S512x1024_1_1_0_0_n_n : DotDims S512x4096 S1024x4096 S512x1024 where
  lhsContracting := [1]
  rhsContracting := [1]
  lhsNonContracting := [0]
  rhsNonContracting := [0]
  lhsBatch := []
  rhsBatch := []
  wf := dot_S512x4096_S1024x4096_S512x1024_1_1_0_0_n_n_wf

abbrev win0_0 : Pipeline.Window sig grid0 :=
  Pipeline.Window.ofSpec (Memref.whole main_v3) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S12288x4096 : Shape := ⟨2, ![12288, 4096]⟩
abbrev S4x2048x12288 : Shape := ⟨3, ![4, 2048, 12288]⟩

abbrev nBuf : Space → Nat
  | .hbm => 6
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S12288x4096, .f32⟩
  | .hbm, ⟨5, _⟩ => ⟨S4x2048x12288, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩

abbrev nD : Nat := 1
abbrev τ : Topo := Topo.v7x

variable {F : FTy → Type} [FloatOps F]

class Facts₀ : Prop where
  concatenates_S4096x4096_S4096x4096_S4096x4096_S12288x4096_d0 : Shape.Concatenates [S4096x4096, S4096x4096, S4096x4096] S12288x4096 0
  dot_S4x2048x4096_S12288x4096_S4x2048x12288_2_1_01_0_n_n_wf : DotDims.WF S4x2048x4096 S12288x4096 S4x2048x12288 [2] [1] [0, 1] [0] [] []

variable [Facts₀]

def dot_S4x2048x4096_S12288x4096_S4x2048x12288_2_1_01_0_n_n : DotDims S4x2048x4096 S12288x4096 S4x2048x12288 where
  lhsContracting := [2]
  rhsContracting := [1]
  lhsNonContracting := [0, 1]
  rhsNonContracting := [0]
  lhsBatch := []
  rhsBatch := []
  wf := dot_S4x2048x4096_S12288x4096_S4x2048x12288_2_1_01_0_n_n_wf

class Facts : Prop extends Facts₀ where

variable [Facts]
-- ==== Proof.BitsFrame.lean ====
/-
  The kernel's run, as printed (read at the word-level instance by the frame claim).

  The run of @main around its one pipelined region.  @main lays the three weight matrices end to end, rounds
  that and the flattened activations to bf16 (four host lines), launches a 12 x 16 grid whose point (j, i) multiplies rows
  512 i .. 512 i + 511 of the activations by rows 1024 j .. 1024 j + 1023 of the weights (contracting the shared axis of
  length 4096 in one step) into block (i, j) of an 8192 x 12288 array, and re-lays that array as 4 x 2048 x 12288 (one
  host line).  Stated here, at any float instance: what the region finds in each array (`V`), the block of each
  window at a grid point (`iblk`), what the body leaves in the output window's buffer (`outBlock`: the one store,
  covering the buffer, of the product of the two input blocks), the body's triple, the proof data of the pipeline,
  and the run: every weakly fair execution ends with the output array at the blocks written back and every other
  buffer as the five host lines leave it; in particular the four argument arrays end unchanged.
-/
import proofs.«110627_j24378234372647_2_alg».proof.Proof.Gen.Kernel.Launch
import proofs.«110627_j24378234372647_2_alg».proof.Proof.Gen.Kernel.Skeleton
import proofs.«110627_j24378234372647_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- What core `c`'s buffers hold when the region is entered: the launch contents after the four host lines
    (concatenate, round, re-lay, round). -/
abbrev V0 (c : Dev nD) : Valuation τ sig (Elt F) := StableHlo.after (List.flatten [hostOps0]) (fun b => m (c, b))
/-- The same at a TensorCore reference. -/
abbrev V (c : Dev nD) (b : Ref sig .tc) : Buf (Elt F) ((c : Thread nD τ).loc b) := V0 m c (Proc.devRef .tc b)

/-- No host line allocates anything. -/
theorem pre_fresh : (hostOps0 : List (HloOp τ sig (Elt F))).Forall fun op => op.fresh = ∅ := by
  simp only [List.Forall]; repeat' constructor
theorem post_fresh : (hostOps1 : List (HloOp τ sig (Elt F))).Forall fun op => op.fresh = ∅ := by
  simp only [List.Forall]; repeat' constructor

/-- @main is the four host lines, the region, and the last host line: it reduces to the region continued by that line. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact pre_fresh) main_chain

/-- The last host line touches only the pipeline's arrays and buffers the pipeline does not stage, -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- allocates nothing, -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp post_fresh) op hop
/-- and writes no array of the pipeline (it writes the re-laid result only). -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w
  fin_cases w <;> simp only [StableHlo.reshape_writes, Finset.mem_singleton] <;> exact StableHlo.devRef_ne_of_ne (by decide)

/-- A buffer none of the four host lines writes is found by the region as launched. -/
theorem V_of_unwritten (c : Dev nD) (b : Ref sig .tc) (h0 : b ≠ main_v0) (h1 : b ≠ main_v1) (h2 : b ≠ main_v2) (h3 : b ≠ main_v3) :
    V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nary_writes, StableHlo.unary_writes, StableHlo.reshape_writes, Finset.mem_singleton]
    exact ⟨StableHlo.devRef_ne_of_ne h0, StableHlo.devRef_ne_of_ne h1, StableHlo.devRef_ne_of_ne h2, StableHlo.devRef_ne_of_ne h3⟩))

/-- A buffer that is no array of the pipeline and that none of the five host lines writes ends as launched. -/
theorem end_of_unwritten (dats : (p : Fin _) → (c : Dev nD) → Dat τ (Elt F) Unit ℕ (UR sig nD τ) ℕ (cfgs p) c) (c : Dev nD)
    (b : Ref sig .tc) (h0 : b ≠ main_v0) (h1 : b ≠ main_v1) (h2 : b ≠ main_v2) (h3 : b ≠ main_v3) (h4 : b ≠ main_v4) (h5 : b ≠ main_v5) :
    Pipeline.afterTail₀ cfgs dats 0 (V0 m) [hostOps1] c b = m ((c : Thread nD τ).loc b) := by
  unfold Pipeline.afterTail₀
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne h5)),
    Pipeline.withArrays_of_ne _ c (V0 m c) _ b (by
      intro w; fin_cases w
      · exact fun e => h3 e.symm
      · exact fun e => h1 e.symm
      · exact fun e => h4 e.symm)]
  exact V_of_unwritten m c b h0 h1 h2 h3

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The activations' window holds its block at every point: for any proof data over the arrays `V` whose body leaves the block in place. -/
theorem before_x_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- So does the weights' window, although it is fetched only when the outer grid coordinate moves (at a point that does
    not fetch it the block index is the previous point's). -/
theorem before_w_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The arguments end unchanged -/

/-- From a run to the pipeline library's post (every array of the pipeline at what the proof data computes, every
    other buffer as the last host line leaves it): the four argument arrays are staged by no window and written by no
    host line, so they end as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans
        (end_of_unwritten m dats c main_arg0 (by decide) (by decide) (by decide) (by decide) (by decide) (by decide)),
     ((h c).2 main_arg1 (Pipeline.mem_restRefs_of main_arg1 (by decide) (by decide))).trans
        (end_of_unwritten m dats c main_arg1 (by decide) (by decide) (by decide) (by decide) (by decide) (by decide)),
     ((h c).2 main_arg2 (Pipeline.mem_restRefs_of main_arg2 (by decide) (by decide))).trans
        (end_of_unwritten m dats c main_arg2 (by decide) (by decide) (by decide) (by decide) (by decide) (by decide)),
     ((h c).2 main_arg3 (Pipeline.mem_restRefs_of main_arg3 (by decide) (by decide))).trans
        (end_of_unwritten m dats c main_arg3 (by decide) (by decide) (by decide) (by decide) (by decide) (by decide))⟩) h

/-! ## The body -/

abbrev rx : Rect S512x4096 := Rect.unit (s := S512x4096) ![0, 0] S512x4096.size inb_S512x4096_S512x4096_0_0
abbrev rw' : Rect S1024x4096 := Rect.unit (s := S1024x4096) ![0, 0] S1024x4096.size inb_S1024x4096_S1024x4096_0_0
abbrev ro : Rect S512x1024 := Rect.unit (s := S512x1024) ![0, 0] S512x1024.size inb_S512x1024_S512x1024_0_0

/-- What the body leaves in the output window's buffer: its one store, over the whole buffer, of the product of the
    two input blocks. -/
def outBlock (x0 : Vec F S512x4096 .bf16) (x1 : Vec F S1024x4096 .bf16) : Vec F S512x1024 .f32 :=
  View.canon [⟨ro, k0_pay1 (View.ld x0 rx) (View.ld x1 rw')⟩]

/-- The one store's rectangle is the whole buffer. -/
theorem out_cover (p0 : Vec F S512x1024 .f32) (y : S512x1024.Idx) :
    ∃ pc ∈ ([⟨ro, p0⟩] : List (View.Piece (Elt F) S512x1024 .f32)), y ∈ pc.1.set :=
  View.cover_of_tiled [⟨ro, p0⟩] S512x1024.size (by rfl) y

set_option maxHeartbeats 1000000 in
/-- The body on whole staging buffers, the inputs' at contents `x0`, `x1` and the output's at anything, runs to the
    inputs' buffers unchanged and the output's at `outBlock x0 x1`. -/
theorem sound_kernel (c : Dev nD) (E : Set ℕ) (i : grid0.Coords) (arg2 : Memref sig .tc .vmem S512x4096 .bf16) (harg2 : arg2.IsWhole)
    (arg3 : Memref sig .tc .vmem S1024x4096 .bf16) (harg3 : arg3.IsWhole) (arg4 : Memref sig .tc .vmem S512x1024 .f32) (harg4 : arg4.IsWhole)
    (x0 : Vec F S512x4096 .bf16) (x1 : Vec F S1024x4096 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (outBlock x0 x1)) -∗ K ⟨⟩))
      ⊢ wp frame (wpE (defs₀ (F := F)) Variants.none c none) E (cc0__qkv_kernel i arg2 harg2 arg3 harg3 arg4 harg4) K := by
  simp only [cc0__qkv_kernel_eq_skeleton]; unfold cc0__qkv_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (out_cover _)

/-! ## The pipeline's proof data -/

/-- On core `c`: the arrays as the region finds them; after the body at point `t` each input's buffer at its block and
    the output's at the product of the two blocks; nothing else owned, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlock (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_x (c : Dev nD) (t : Fin cfg0.N) : (dats m 0 c).after 0 t = iblk m c 0 t := by dsimp only [dats]
theorem after_w (c : Dev nD) (t : Fin cfg0.N) : (dats m 0 c).after 1 t = iblk m c 1 t := by dsimp only [dats]
theorem after_o (c : Dev nD) (t : Fin cfg0.N) : (dats m 0 c).after 2 t = outBlock (iblk m c 0 t) (iblk m c 1 t) := by dsimp only [dats]

theorem before_x (c : Dev nD) (t : Fin cfg0.N) (d) : (dats m 0 c).before 0 t d = iblk m c 0 t :=
  before_x_of m (dats m 0 c) (A_eq m c 0) (after_x m c) t d
theorem before_w (c : Dev nD) (t : Fin cfg0.N) (d) : (dats m 0 c).before 1 t d = iblk m c 1 t :=
  before_w_of m (dats m 0 c) (A_eq m c 1) (after_w m c) t d

/-! ## The body obligation at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- At any point the inputs' buffers hold their blocks, so the body's triple applies; the invariant and what the core
    owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_x, before_w]
  rw [show (dats m 0 c).Φ t.succ = (dats m 0 c).Φ t.castSucc from rfl,
    show (dats m 0 c).owesAt () t.succ = (dats m 0 c).owesAt () t.castSucc from rfl,
    after_x, after_w, after_o]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of @main terminates, with every array of the pipeline at what the proof data computes
    (the output array: its entry contents overwritten by the block each point wrote back) and every other unscoped
    buffer as the last host line leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hΦ := fun _ _ => rfl)

/-- The four argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (run_main m ρ)

end Cert.Kernel.Frm

end
-- ==== Proof.IdealFrame.lean ====
/-
  The idealized kernel's run.

  The run of @main around its one pipelined region.  @main lays the three weight matrices end to end, rounds
  that and the flattened activations to bf16 (four host lines), launches a 12 x 16 grid whose point (j, i) multiplies rows
  512 i .. 512 i + 511 of the activations by rows 1024 j .. 1024 j + 1023 of the weights (contracting the shared axis of
  length 4096 in one step) into block (i, j) of an 8192 x 12288 array, and re-lays that array as 4 x 2048 x 12288 (one
  host line).  Stated here, at any float instance: what the region finds in each array (`V`), the block of each
  window at a grid point (`iblk`), what the body leaves in the output window's buffer (`outBlock`: the one store,
  covering the buffer, of the product of the two input blocks), the body's triple, the proof data of the pipeline,
  and the run: every weakly fair execution ends with the output array at the blocks written back and every other
  buffer as the five host lines leave it; in particular the four argument arrays end unchanged.
-/
import proofs.«110627_j24378234372647_2_alg».proof.Proof.Gen.KernelIdeal.Launch
import proofs.«110627_j24378234372647_2_alg».proof.Proof.Gen.KernelIdeal.Skeleton
import proofs.«110627_j24378234372647_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- What core `c`'s buffers hold when the region is entered: the launch contents after the four host lines
    (concatenate, round, re-lay, round). -/
abbrev V0 (c : Dev nD) : Valuation τ sig (Elt F) := StableHlo.after (List.flatten [hostOps0]) (fun b => m (c, b))
/-- The same at a TensorCore reference. -/
abbrev V (c : Dev nD) (b : Ref sig .tc) : Buf (Elt F) ((c : Thread nD τ).loc b) := V0 m c (Proc.devRef .tc b)

/-- No host line allocates anything. -/
theorem pre_fresh : (hostOps0 : List (HloOp τ sig (Elt F))).Forall fun op => op.fresh = ∅ := by
  simp only [List.Forall]; repeat' constructor
theorem post_fresh : (hostOps1 : List (HloOp τ sig (Elt F))).Forall fun op => op.fresh = ∅ := by
  simp only [List.Forall]; repeat' constructor

/-- @main is the four host lines, the region, and the last host line: it reduces to the region continued by that line. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact pre_fresh) main_chain

/-- The last host line touches only the pipeline's arrays and buffers the pipeline does not stage, -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- allocates nothing, -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp post_fresh) op hop
/-- and writes no array of the pipeline (it writes the re-laid result only). -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w
  fin_cases w <;> simp only [StableHlo.reshape_writes, Finset.mem_singleton] <;> exact StableHlo.devRef_ne_of_ne (by decide)

/-- A buffer none of the four host lines writes is found by the region as launched. -/
theorem V_of_unwritten (c : Dev nD) (b : Ref sig .tc) (h0 : b ≠ main_v0) (h1 : b ≠ main_v1) (h2 : b ≠ main_v2) (h3 : b ≠ main_v3) :
    V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nary_writes, StableHlo.unary_writes, StableHlo.reshape_writes, Finset.mem_singleton]
    exact ⟨StableHlo.devRef_ne_of_ne h0, StableHlo.devRef_ne_of_ne h1, StableHlo.devRef_ne_of_ne h2, StableHlo.devRef_ne_of_ne h3⟩))

/-- A buffer that is no array of the pipeline and that none of the five host lines writes ends as launched. -/
theorem end_of_unwritten (dats : (p : Fin _) → (c : Dev nD) → Dat τ (Elt F) Unit ℕ (UR sig nD τ) ℕ (cfgs p) c) (c : Dev nD)
    (b : Ref sig .tc) (h0 : b ≠ main_v0) (h1 : b ≠ main_v1) (h2 : b ≠ main_v2) (h3 : b ≠ main_v3) (h4 : b ≠ main_v4) (h5 : b ≠ main_v5) :
    Pipeline.afterTail₀ cfgs dats 0 (V0 m) [hostOps1] c b = m ((c : Thread nD τ).loc b) := by
  unfold Pipeline.afterTail₀
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne h5)),
    Pipeline.withArrays_of_ne _ c (V0 m c) _ b (by
      intro w; fin_cases w
      · exact fun e => h3 e.symm
      · exact fun e => h1 e.symm
      · exact fun e => h4 e.symm)]
  exact V_of_unwritten m c b h0 h1 h2 h3

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The activations' window holds its block at every point: for any proof data over the arrays `V` whose body leaves the block in place. -/
theorem before_x_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- So does the weights' window, although it is fetched only when the outer grid coordinate moves (at a point that does
    not fetch it the block index is the previous point's). -/
theorem before_w_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The arguments end unchanged -/

/-- From a run to the pipeline library's post (every array of the pipeline at what the proof data computes, every
    other buffer as the last host line leaves it): the four argument arrays are staged by no window and written by no
    host line, so they end as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans
        (end_of_unwritten m dats c main_arg0 (by decide) (by decide) (by decide) (by decide) (by decide) (by decide)),
     ((h c).2 main_arg1 (Pipeline.mem_restRefs_of main_arg1 (by decide) (by decide))).trans
        (end_of_unwritten m dats c main_arg1 (by decide) (by decide) (by decide) (by decide) (by decide) (by decide)),
     ((h c).2 main_arg2 (Pipeline.mem_restRefs_of main_arg2 (by decide) (by decide))).trans
        (end_of_unwritten m dats c main_arg2 (by decide) (by decide) (by decide) (by decide) (by decide) (by decide)),
     ((h c).2 main_arg3 (Pipeline.mem_restRefs_of main_arg3 (by decide) (by decide))).trans
        (end_of_unwritten m dats c main_arg3 (by decide) (by decide) (by decide) (by decide) (by decide) (by decide))⟩) h

/-! ## The body -/

abbrev rx : Rect S512x4096 := Rect.unit (s := S512x4096) ![0, 0] S512x4096.size inb_S512x4096_S512x4096_0_0
abbrev rw' : Rect S1024x4096 := Rect.unit (s := S1024x4096) ![0, 0] S1024x4096.size inb_S1024x4096_S1024x4096_0_0
abbrev ro : Rect S512x1024 := Rect.unit (s := S512x1024) ![0, 0] S512x1024.size inb_S512x1024_S512x1024_0_0

/-- What the body leaves in the output window's buffer: its one store, over the whole buffer, of the product of the
    two input blocks. -/
def outBlock (x0 : Vec F S512x4096 .bf16) (x1 : Vec F S1024x4096 .bf16) : Vec F S512x1024 .f32 :=
  View.canon [⟨ro, k0_pay1 (View.ld x0 rx) (View.ld x1 rw')⟩]

/-- The one store's rectangle is the whole buffer. -/
theorem out_cover (p0 : Vec F S512x1024 .f32) (y : S512x1024.Idx) :
    ∃ pc ∈ ([⟨ro, p0⟩] : List (View.Piece (Elt F) S512x1024 .f32)), y ∈ pc.1.set :=
  View.cover_of_tiled [⟨ro, p0⟩] S512x1024.size (by rfl) y

set_option maxHeartbeats 1000000 in
/-- The body on whole staging buffers, the inputs' at contents `x0`, `x1` and the output's at anything, runs to the
    inputs' buffers unchanged and the output's at `outBlock x0 x1`. -/
theorem sound_kernel (c : Dev nD) (E : Set ℕ) (i : grid0.Coords) (arg2 : Memref sig .tc .vmem S512x4096 .bf16) (harg2 : arg2.IsWhole)
    (arg3 : Memref sig .tc .vmem S1024x4096 .bf16) (harg3 : arg3.IsWhole) (arg4 : Memref sig .tc .vmem S512x1024 .f32) (harg4 : arg4.IsWhole)
    (x0 : Vec F S512x4096 .bf16) (x1 : Vec F S1024x4096 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (outBlock x0 x1)) -∗ K ⟨⟩))
      ⊢ wp frame (wpE (defs₀ (F := F)) Variants.none c none) E (cc0__qkv_kernel i arg2 harg2 arg3 harg3 arg4 harg4) K := by
  simp only [cc0__qkv_kernel_eq_skeleton]; unfold cc0__qkv_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (out_cover _)

/-! ## The pipeline's proof data -/

/-- On core `c`: the arrays as the region finds them; after the body at point `t` each input's buffer at its block and
    the output's at the product of the two blocks; nothing else owned, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlock (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_x (c : Dev nD) (t : Fin cfg0.N) : (dats m 0 c).after 0 t = iblk m c 0 t := by dsimp only [dats]
theorem after_w (c : Dev nD) (t : Fin cfg0.N) : (dats m 0 c).after 1 t = iblk m c 1 t := by dsimp only [dats]
theorem after_o (c : Dev nD) (t : Fin cfg0.N) : (dats m 0 c).after 2 t = outBlock (iblk m c 0 t) (iblk m c 1 t) := by dsimp only [dats]

theorem before_x (c : Dev nD) (t : Fin cfg0.N) (d) : (dats m 0 c).before 0 t d = iblk m c 0 t :=
  before_x_of m (dats m 0 c) (A_eq m c 0) (after_x m c) t d
theorem before_w (c : Dev nD) (t : Fin cfg0.N) (d) : (dats m 0 c).before 1 t d = iblk m c 1 t :=
  before_w_of m (dats m 0 c) (A_eq m c 1) (after_w m c) t d

/-! ## The body obligation at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- At any point the inputs' buffers hold their blocks, so the body's triple applies; the invariant and what the core
    owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_x, before_w]
  rw [show (dats m 0 c).Φ t.succ = (dats m 0 c).Φ t.castSucc from rfl,
    show (dats m 0 c).owesAt () t.succ = (dats m 0 c).owesAt () t.castSucc from rfl,
    after_x, after_w, after_o]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of @main terminates, with every array of the pipeline at what the proof data computes
    (the output array: its entry contents overwritten by the block each point wrote back) and every other unscoped
    buffer as the last host line leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hΦ := fun _ _ => rfl)

/-- The four argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (run_main m ρ)

end Cert.KernelIdeal.Frm

end
-- ==== Proof.BlockProduct.lean ====
/-
  One grid point's arithmetic at the exact reading.  The body multiplies a 512 x 4096 block of activations by a
  1024 x 4096 block of weights, contracting the second axis of both into a zero accumulator: entry (p, q) of the
  512 x 1024 result is the sum over k < 4096 of x[p, k] · w[q, k] on the extended reals (the two re-layings of a block to
  its own shape are the identity, the accumulator's zero adds nothing).
-/
import proofs.«110627_j24378234372647_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.BlockProduct

open Cert.KernelIdeal Cert.KernelIdeal.Gen Idealize.ShloMosaic Idealize.ShloMosaic.ValueIdx

/-- The contraction's dimension numbers: axis 1 of both operands contracted, axis 0 of each kept. -/
abbrev dd : DotDims S512x4096 S1024x4096 S512x1024 := dot_S512x4096_S1024x4096_S512x1024_1_1_0_0_n_n

/-- The left operand is read at the result's row … -/
theorem lhs_row (j : S512x1024.Idx) (q : dd.contr.Idx) : (dd.lhsIdx j q 0).val = (j 0).val := by
  unfold DotDims.lhsIdx
  rw [dif_neg (show ¬(0 : Fin S512x4096.rank) ∈ dd.lhsBatch by decide), dif_pos (show (0 : Fin S512x4096.rank) ∈ dd.lhsNonContracting by decide)]
  rfl
/-- … and the contraction position; -/
theorem lhs_k (j : S512x1024.Idx) (q : dd.contr.Idx) : (dd.lhsIdx j q 1).val = (q ⟨0, by decide⟩).val :=
  dd.lhsIdx_val_of_single rfl j q
/-- the right operand at the result's column (a row of the weights' block) … -/
theorem rhs_row (j : S512x1024.Idx) (q : dd.contr.Idx) : (dd.rhsIdx j q 0).val = (j 1).val := by
  unfold DotDims.rhsIdx
  rw [dif_neg (show ¬(0 : Fin S1024x4096.rank) ∈ dd.rhsBatch by decide), dif_pos (show (0 : Fin S1024x4096.rank) ∈ dd.rhsNonContracting by decide)]
  rfl
/-- … and the contraction position. -/
theorem rhs_k (j : S512x1024.Idx) (q : dd.contr.Idx) : (dd.rhsIdx j q 1).val = (q ⟨0, by decide⟩).val :=
  dd.rhsIdx_val_of_single rfl j q

/-- Entry `j` of the block the body stores is the sum over the contracted axis of the products of row `j 0` of the
    activations' block and row `j 1` of the weights' block. -/
theorem pay_apply (x0 : Vec Ideal S512x4096 .bf16) (x1 : Vec Ideal S1024x4096 .bf16) (j : S512x1024.Idx) :
    k0_pay1 (F := Ideal) x0 x1 j = ∑ k : Fin 4096, x0 (ix2 (j 0) k) * x1 (ix2 (j 1) k) := by
  unfold k0_pay1
  simp only [shapeCast_self]
  refine (Ideal.matmul_constant_zero_apply (φ₁ := .bf16) (φ₂ := .bf16) dd none x0 x1 j).trans ?_
  rw [← Equiv.sum_comp (contrEquiv1 dd 4096 rfl rfl).symm]
  refine Finset.sum_congr rfl fun k _ => ?_
  have hk := contrEquiv1_symm_val dd 4096 rfl rfl k
  have el : dd.lhsIdx j ((contrEquiv1 dd 4096 rfl rfl).symm k) = ix2 (j 0) k := funext fun a => Fin.ext (by
    match a with
    | ⟨0, _⟩ => exact lhs_row _ _
    | ⟨1, _⟩ => exact (lhs_k _ _).trans hk)
  have er : dd.rhsIdx j ((contrEquiv1 dd 4096 rfl rfl).symm k) = ix2 (j 1) k := funext fun a => Fin.ext (by
    match a with
    | ⟨0, _⟩ => exact rhs_row _ _
    | ⟨1, _⟩ => exact (rhs_k _ _).trans hk)
  rw [el, er] <;> rfl

end Cert.KernelIdeal.BlockProduct

end
-- ==== Proof.ArrayValue.lean ====
/-
  From blocks to arrays, at the exact reading.  Grid point t = (j, i) writes back block (i, j) of the 8192 x 12288
  output array, and that block is the product of rows 512 i .. of the rounded activations with rows 1024 j .. of the
  rounded weights: the same entries the whole-array function `rowsDot` (entry (r, o) = Σ_k X[r, k] · W[o, k]) has there,
  because a block's coordinate on an axis is always (block index) × (block extent) + (coordinate inside the block) and
  the two input windows move with the output window's row and column block.  The 16 x 12 blocks tile the array, so the
  array ends at `rowsDot` of what the region found in the two input arrays.  Those are the host lines' results
  (the activations re-laid [4, 2048, 4096] -> [8192, 4096], the three weight matrices laid end to end; the rounding to
  bf16 is the identity on the extended reals), and the last host line re-lays the array as [4, 2048, 12288].
-/
import proofs.«110627_j24378234372647_2_alg».proof.Proof.IdealFrame
import proofs.«110627_j24378234372647_2_alg».proof.Proof.BlockProduct
import Idealize.ShloMosaic.Lib.StableHlo.Run

set_option maxRecDepth 16384

noncomputable section

namespace Cert.KernelIdeal.ArrayValue

open Cert.KernelIdeal Cert.KernelIdeal.Gen Cert.KernelIdeal.Frm
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- Every row of `X` against every row of `W`: entry (r, o) is Σ_k X[r, k] · W[o, k]. -/
def rowsDot (X : (⟨S8192x4096, .bf16⟩ : BufTy).Contents (Elt Ideal)) (W : (⟨S12288x4096, .bf16⟩ : BufTy).Contents (Elt Ideal)) :
    (⟨S8192x12288, .f32⟩ : BufTy).Contents (Elt Ideal) :=
  fun j => ∑ k : Fin 4096, X (ix2 (j 0) k) * W (ix2 (j 1) k)

/-- The rounded, re-laid activations and the rounded, stacked weights as the region finds them. -/
abbrev Xr (c : Dev nD) : (⟨S8192x4096, .bf16⟩ : BufTy).Contents (Elt Ideal) := V m c main_v3
abbrev Wr (c : Dev nD) : (⟨S12288x4096, .bf16⟩ : BufTy).Contents (Elt Ideal) := V m c main_v1

theorem off_zero : (![0, 0] : Fin 2 → Nat) = fun _ => 0 := funext fun a => by fin_cases a <;> rfl

/-- The index maps over the grid: the activations' window follows the output's row block and the weights' window
    its column block, both at column block 0; there are 16 row blocks and 12 column blocks. -/
theorem idx_facts : ∀ t : Fin cfg0.N, win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) ≤ 15 ∧ win0_2.index t (1 : Fin 2) ≤ 11 :=
  (by decide +kernel : ∀ t : Fin grid0.N, _)

/-- Every block of the output array is some grid point's. -/
theorem idx_onto : ∀ (q0 : Fin 16) (q1 : Fin 12), ∃ t : Fin cfg0.N, win0_2.index t = ![q0.val, q1.val] :=
  (by decide +kernel : ∀ (q0 : Fin 16) (q1 : Fin 12), ∃ t : Fin grid0.N, win0_2.index t = ![q0.val, q1.val])

/-- What grid point `t` writes back is block `t` of `rowsDot` of the two input arrays as the region finds them. -/
theorem flushed_eq (c : Dev nD) (t : Fin cfg0.N) :
    (dats m 0 c).flushed 2 t = ((cfg0.win 2).blk t).view.read (Elt Ideal) (rowsDot (Xr m c) (Wr m c)) := by
  show (cfg0.win 2).cut (grid0.coords t) ((dats m 0 c).after 2 t) = _
  rw [after_o]
  unfold outBlock
  rw [View.canon_unit_zero off_zero]
  simp only [View.ld_unit_zero (S := S512x4096) off_zero, View.ld_unit_zero (S := S1024x4096) off_zero]
  obtain ⟨e0, e1, e2, e3, -, -⟩ := idx_facts t
  funext y
  refine (BlockProduct.pay_apply (iblk m c 0 t) (iblk m c 1 t) y).trans ?_
  show ∑ k : Fin 4096, Xr m c (((cfg0.win 0).blk t).view.emb (ix2 (y 0) k)) * Wr m c (((cfg0.win 1).blk t).view.emb (ix2 (y 1) k))
    = ∑ k : Fin 4096, Xr m c (ix2 ((((cfg0.win 2).blk t).view.emb y) 0) k) * Wr m c (ix2 ((((cfg0.win 2).blk t).view.emb y) 1) k)
  refine Finset.sum_congr rfl fun k _ => ?_
  have hx : ((cfg0.win 0).blk t).view.emb (ix2 (y 0) k) = ix2 ((((cfg0.win 2).blk t).view.emb y) 0) k := by
    funext a; apply Fin.ext
    match a with
    | ⟨0, _⟩ => show win0_0.index t (0 : Fin 2) * 512 + 1 * (y 0).val = win0_2.index t (0 : Fin 2) * 512 + 1 * (y 0).val; omega
    | ⟨1, _⟩ => show win0_0.index t (1 : Fin 2) * 4096 + 1 * k.val = k.val; omega
  have hw : ((cfg0.win 1).blk t).view.emb (ix2 (y 1) k) = ix2 ((((cfg0.win 2).blk t).view.emb y) 1) k := by
    funext a; apply Fin.ext
    match a with
    | ⟨0, _⟩ => show win0_1.index t (0 : Fin 2) * 1024 + 1 * (y 1).val = win0_2.index t (1 : Fin 2) * 1024 + 1 * (y 1).val; omega
    | ⟨1, _⟩ => show win0_1.index t (1 : Fin 2) * 4096 + 1 * k.val = k.val; omega
  rw [hx, hw] <;> rfl

/-- An index of the output array is in point `t`'s block iff each coordinate is in the block's range on its axis. -/
theorem mem_blk (t : Fin cfg0.N) (i : S8192x12288.Idx) :
    i ∈ ((cfg0.win 2).blk t).view.set ↔ ∀ a : Fin 2, win0_2.index t a * S512x1024.size a ≤ (i a).val ∧ (i a).val < win0_2.index t a * S512x1024.size a + S512x1024.size a := by
  show i ∈ ((View.whole main_v4).slice (win0_2.rect t)).set ↔ _
  rw [View.set_slice_whole, Rect.mem_set_unit]
  exact Iff.rfl

/-- The blocks tile the array: index (r, o) is in the block of the point whose row block is r / 512 and column block o / 1024. -/
theorem cover (i : S8192x12288.Idx) : ∃ t : Fin cfg0.N, (cfg0.win 2).flush t = true ∧ i ∈ ((cfg0.win 2).blk t).view.set := by
  have hi0 : (i 0).val < 8192 := (i 0).isLt
  have hi1 : (i 1).val < 12288 := (i 1).isLt
  obtain ⟨t, ht⟩ := idx_onto ⟨(i 0).val / 512, by omega⟩ ⟨(i 1).val / 1024, by omega⟩
  have q0 : win0_2.index t (0 : Fin 2) = (i 0).val / 512 := congrFun ht 0
  have q1 : win0_2.index t (1 : Fin 2) = (i 1).val / 1024 := congrFun ht 1
  refine ⟨t, flush0_2 t, ?_⟩
  rw [mem_blk]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 1024 ≤ (i 1).val ∧ (i 1).val < win0_2.index t (1 : Fin 2) * 1024 + 1024; omega

/-- The output array after the run. -/
theorem final (c : Dev nD) : (dats m 0 c).arrAt 2 cfg0.N = rowsDot (Xr m c) (Wr m c) :=
  (dats m 0 c).arrAt_eq_of_cover 2 _ (fun t _ => flushed_eq m c t) cover

end Cert.KernelIdeal.ArrayValue

end
-- ==== Proof.Spec.lean ====
/-
  The projection both programs compute, as one function of the activations x : [4, 2048, 4096] and the stacked weights
  W : [12288, 4096] on the extended reals:  out[b, s, o] = Σ_{k < 4096} x[b, s, k] · W[o, k].
-/
import Idealize.ShloMosaic.PureOps.Ideal
import Idealize.ShloMosaic.Lib.ValueIdx

noncomputable section

namespace Cert.QkvSpec

open Idealize.ShloMosaic Idealize.ShloMosaic.ValueIdx

/-- Entry (b, s, o) of the projection: row (b, s) of the activations against row o of the weights. -/
def proj (x : (⟨⟨3, ![4, 2048, 4096]⟩, .f32⟩ : BufTy).Contents (Elt Ideal)) (W : (⟨⟨2, ![12288, 4096]⟩, .f32⟩ : BufTy).Contents (Elt Ideal)) :
    (⟨⟨3, ![4, 2048, 12288]⟩, .f32⟩ : BufTy).Contents (Elt Ideal) :=
  fun i => ∑ k : Fin 4096, x (ix3 (i 0) (i 1) k) * W (ix2 (i 2) k)

end Cert.QkvSpec

end
-- ==== Proof.HostLines.lean ====
/-
  The host lines around the region, at the exact reading, and the kernel program's result.  Before the region the
  activations are re-laid [4, 2048, 4096] -> [8192, 4096] (row b·2048 + s is row (b, s)) and the three weight matrices
  are laid end to end; the roundings to bf16 are the identity on the extended reals.  After it the output array
  [8192, 12288] is re-laid as [4, 2048, 12288].  So entry (b, s, o) of the result is entry (b·2048 + s, o) of the
  output array, Σ_k X[b·2048 + s, k] · W[o, k] = Σ_k x[b, s, k] · W[o, k]: the projection.
-/
import proofs.«110627_j24378234372647_2_alg».proof.Proof.ArrayValue
import proofs.«110627_j24378234372647_2_alg».proof.Proof.Spec

set_option maxRecDepth 16384

noncomputable section

namespace Cert.KernelIdeal.HostLines

open Cert.KernelIdeal Cert.KernelIdeal.Gen Cert.KernelIdeal.Frm Cert.KernelIdeal.ArrayValue
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-- The three weight matrices laid end to end along the output axis. -/
abbrev stacked (c : Dev nD) : (⟨S12288x4096, .f32⟩ : BufTy).Contents (Elt Ideal) :=
  concatenate S12288x4096 0 [⟨S4096x4096, m ((c : Thread nD τ).loc main_arg1)⟩, ⟨S4096x4096, m ((c : Thread nD τ).loc main_arg2)⟩, ⟨S4096x4096, m ((c : Thread nD τ).loc main_arg3)⟩] concatenates_S4096x4096_S4096x4096_S4096x4096_S12288x4096_d0

/-- The activations as launched. -/
abbrev xArg (c : Dev nD) : (⟨S4x2048x4096, .f32⟩ : BufTy).Contents (Elt Ideal) := m ((c : Thread nD τ).loc main_arg0)

/-- The region finds the activations re-laid as 8192 rows (and rounded: the identity here). -/
theorem V_x (c : Dev nD) : Xr m c
    = truncf (F := Ideal) .bf16 (shapeCast S8192x4096 (m ((c : Thread nD τ).loc main_arg0)) shapeCasts_S4x2048x4096_S8192x4096) bitsLt_bf16_f32 := by
  show StableHlo.after hostOps0 (fun b => m (c, b)) (Proc.devRef .tc main_v3) = _
  after_results
  rfl

/-- The region finds the stacked weights (rounded: the identity here). -/
theorem V_w (c : Dev nD) : Wr m c
    = truncf (F := Ideal) .bf16 (stacked m c) bitsLt_bf16_f32 := by
  show StableHlo.after hostOps0 (fun b => m (c, b)) (Proc.devRef .tc main_v1) = _
  after_results
  rfl

/-- Row b·2048 + s of the re-laid activations is row (b, s). -/
theorem V_x_apply (c : Dev nD) (b : Fin 4) (s : Fin 2048) (k : Fin 4096) (r : Fin 8192) (hr : r.val = b.val * 2048 + s.val) :
    Xr m c (ix2 r k) = xArg m c (ix3 b s k) := by
  rw [V_x]
  show shapeCast S8192x4096 (m ((c : Thread nD τ).loc main_arg0)) shapeCasts_S4x2048x4096_S8192x4096 (ix2 r k) = _
  exact shapeCast_apply _ _ _ _ (by
    show (S4x2048x4096.rowMajor (ix3 b s k)).val = (S8192x4096.rowMajor (ix2 r k)).val
    rw [Shape.rowMajor_val_three, Shape.rowMajor_val_two]
    show (b.val * 2048 + s.val) * 4096 + k.val = r.val * 4096 + k.val
    rw [hr])

/-- The last host line re-lays the output array. -/
theorem tail_result (c : Dev nD) :
    Pipeline.afterTail₀ cfgs (dats m) 0 (V0 m) [hostOps1] c main_v5
      = shapeCast S4x2048x12288 ((dats m 0 c).arrAt 2 cfg0.N) shapeCasts_S8192x12288_S4x2048x12288 := by
  unfold Pipeline.afterTail₀
  show StableHlo.after hostOps1 _ (Proc.devRef .tc main_v5) = _
  after_results
  have h := Pipeline.withArrays_arr spec0 launch0.win.arr_inj c (V0 m c) (fun w => (dats m 0 c).arrAt w cfg0.N) 2
  exact congrArg (fun A : (⟨S8192x12288, .f32⟩ : BufTy).Contents (Elt Ideal) => shapeCast S4x2048x12288 A shapeCasts_S8192x12288_S4x2048x12288) h

/-- The kernel program's result, entry by entry, is the projection of the activations and the stacked weights. -/
theorem relaid_eq (c : Dev nD) :
    (shapeCast S4x2048x12288 (rowsDot (Xr m c) (Wr m c)) shapeCasts_S8192x12288_S4x2048x12288 : (⟨S4x2048x12288, .f32⟩ : BufTy).Contents (Elt Ideal))
      = Cert.QkvSpec.proj (m ((c : Thread nD τ).loc main_arg0)) (stacked m c) := by
  funext i
  obtain ⟨b, s, o, rfl⟩ : ∃ (b : Fin 4) (s : Fin 2048) (o : Fin 12288), i = ix3 b s o := ⟨i 0, i 1, i 2, eq_ix3 i⟩
  have hr : b.val * 2048 + s.val < 8192 := by have := b.isLt; have := s.isLt; omega
  rw [shapeCast_apply (rowsDot (Xr m c) (Wr m c)) shapeCasts_S8192x12288_S4x2048x12288 (ix3 b s o) (ix2 ⟨b.val * 2048 + s.val, hr⟩ o) (by
    show (S8192x12288.rowMajor (ix2 ⟨b.val * 2048 + s.val, hr⟩ o)).val = (S4x2048x12288.rowMajor (ix3 b s o)).val
    rw [Shape.rowMajor_val_two, Shape.rowMajor_val_three]; rfl)]
  unfold rowsDot Cert.QkvSpec.proj
  refine Finset.sum_congr rfl fun k _ => ?_
  show Xr m c (ix2 ⟨b.val * 2048 + s.val, hr⟩ k) * Wr m c (ix2 o k) = xArg m c (ix3 b s k) * stacked m c (ix2 o k)
  rw [V_x_apply m c b s k ⟨_, hr⟩ rfl, V_w]
  rfl

/-- So is the re-laid output array after the run. -/
theorem result_eq (c : Dev nD) :
    shapeCast S4x2048x12288 ((dats m 0 c).arrAt 2 cfg0.N) shapeCasts_S8192x12288_S4x2048x12288
      = Cert.QkvSpec.proj (m ((c : Thread nD τ).loc main_arg0)) (stacked m c) := by
  rw [final]
  exact relaid_eq m c

/-- Every weakly fair execution of the kernel program terminates with its result at the projection and its four
    argument arrays unchanged. -/
theorem run : θ_run defs (onTc (τ := τ) (main (F := Ideal))) ⟨m, fun _ => 0, ρ⟩ fun r => ∀ c : Dev nD,
      r.2.mem ((c.tc : Thread nD τ).loc main_v5) = Cert.QkvSpec.proj (m ((c.tc : Thread nD τ).loc main_arg0)) (stacked m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h c).2 main_v5 (Pipeline.mem_restRefs_of main_v5 (by decide) (by decide))).trans ((tail_result m c).trans (result_eq m c)),
     ((h c).2 main_arg0 (Pipeline.mem_restRefs_of main_arg0 (by decide) (by decide))).trans
        (end_of_unwritten m (dats m) c main_arg0 (by decide) (by decide) (by decide) (by decide) (by decide) (by decide)),
     ((h c).2 main_arg1 (Pipeline.mem_restRefs_of main_arg1 (by decide) (by decide))).trans
        (end_of_unwritten m (dats m) c main_arg1 (by decide) (by decide) (by decide) (by decide) (by decide) (by decide)),
     ((h c).2 main_arg2 (Pipeline.mem_restRefs_of main_arg2 (by decide) (by decide))).trans
        (end_of_unwritten m (dats m) c main_arg2 (by decide) (by decide) (by decide) (by decide) (by decide) (by decide)),
     ((h c).2 main_arg3 (Pipeline.mem_restRefs_of main_arg3 (by decide) (by decide))).trans
        (end_of_unwritten m (dats m) c main_arg3 (by decide) (by decide) (by decide) (by decide) (by decide) (by decide))⟩)
    (run_main m ρ)

end Cert.KernelIdeal.HostLines

end
-- ==== Proof.RefSide.lean ====
/-
  The reference at the exact reading: jnp's contraction of the activations' last axis with the stacked weights' last
  axis is, entry by entry, the projection Σ_k x[b, s, k] · W[o, k].
-/
import proofs.«110627_j24378234372647_2_alg».proof.Proof.Gen.ReferenceIdeal.Read
import proofs.«110627_j24378234372647_2_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Idealize.ShloMosaic Idealize.ShloMosaic.ValueIdx

/-- The reference's result is the projection of the activations and the stacked weights. -/
theorem result_is_proj (x0 : (⟨S4x2048x4096, .f32⟩ : BufTy).Contents (Elt Ideal)) (x1 x2 x3 : (⟨S4096x4096, .f32⟩ : BufTy).Contents (Elt Ideal)) :
    Read.val_main_v1 (F := Ideal) x0 x1 x2 x3 = Cert.QkvSpec.proj x0 (Read.val_main_v0 (F := Ideal) x1 x2 x3) := by
  funext i
  rw [Read.val_main_v1_apply]
  unfold Cert.QkvSpec.proj
  refine Finset.sum_congr rfl fun k _ => ?_
  have el : Read.lidx_main_v1 i k = ix3 (i 0) (i 1) k := funext fun a => Fin.ext (by
    match a with
    | ⟨0, _⟩ => rfl
    | ⟨1, _⟩ => rfl
    | ⟨2, _⟩ => rfl)
  have er : Read.ridx_main_v1 i k = ix2 (i 2) k := funext fun a => Fin.ext (by
    match a with
    | ⟨0, _⟩ => rfl
    | ⟨1, _⟩ => rfl)
  rw [el, er] <;> rfl

end Cert.ReferenceIdeal.RefValue

end
-- ==== Proof.lean ====
/-
  The claim: a fused Q/K/V projection.  Both programs compute out[b, s, o] = Σ_{k < 4096} x[b, s, k] · W[o, k] for the
  activations x : [4, 2048, 4096] and W the three 4096 x 4096 weight matrices laid end to end along o.  The kernel
  program rounds x (flattened to 8192 rows) and W to bf16 on the host, multiplies 512-row blocks of x by 1024-row blocks
  of W over a 12 x 16 grid, each grid point contracting the whole shared axis in one step into its own block of an
  8192 x 12288 array, and re-lays the array as [4, 2048, 12288]; the reference contracts x with W directly.  On the
  extended reals the roundings are the identity, the blocks tile the array, and every entry is the same finite sum of
  the same products in the same order on both sides, so no law of the extended reals beyond that is needed and
  finiteness of the inputs is not used.  The two frames of the kernel program are its run around the region (the four
  argument arrays are staged by no window and written by no host line); the reference's frame is its run with the
  result dropped; the idealization rewrote nothing.
-/
import proofs.«110627_j24378234372647_2_alg».proof.Defs
import proofs.«110627_j24378234372647_2_alg».proof.Proof.Gen.Kernel
import proofs.«110627_j24378234372647_2_alg».proof.Proof.Gen.KernelIdeal
import proofs.«110627_j24378234372647_2_alg».proof.Proof.Gen.ReferenceIdeal
import proofs.«110627_j24378234372647_2_alg».proof.Proof.Gen.Pre_finite_inputs
import proofs.«110627_j24378234372647_2_alg».proof.Proof.Gen.ReferenceIdeal.Run
import proofs.«110627_j24378234372647_2_alg».proof.Proof.Gen.ReferenceIdeal.Read
import proofs.«110627_j24378234372647_2_alg».proof.Proof.BitsFrame
import proofs.«110627_j24378234372647_2_alg».proof.Proof.IdealFrame
import proofs.«110627_j24378234372647_2_alg».proof.Proof.HostLines
import proofs.«110627_j24378234372647_2_alg».proof.Proof.RefSide
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Frm.frame m ρ
theorem frame_ki : Cert.frame_KernelIdeal := fun m ρ _ => Cert.KernelIdeal.Frm.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories that agree on the four arguments both programs end at the projection of the activations and the
    stacked weights. -/
theorem algebraic : Cert.algebraic_KernelIdeal_ReferenceIdeal := by
  intro m ρ m' ρ' _ hagree
  refine ⟨fun c => Cert.QkvSpec.proj (m ((c.tc : Thread Cert.KernelIdeal.nD Cert.KernelIdeal.τ).loc Cert.KernelIdeal.main_arg0)) (Cert.KernelIdeal.HostLines.stacked m c),
    Cert.KernelIdeal.HostLines.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v1_eq, Cert.ReferenceIdeal.RefValue.result_is_proj,
    (hagree c).1, (hagree c).2.1, (hagree c).2.2.1, (hagree c).2.2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
